-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x150000 : Shape := ⟨2, ![2, 150000]⟩
abbrev S512 : Shape := ⟨1, ![512]⟩
abbrev S512x512 : Shape := ⟨2, ![512, 512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg5 : FVec F S512 .f32) (main_arg6 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  main_v28

def fn {F : FTy → Type} [FloatOps F] (main_arg0 : FVec F S10000x512 .f32) (main_arg1 : IVec S2x150000 32) (main_arg2 : FVec F S512 .f32) (main_arg3 : FVec F S512 .f32) (main_arg4 : FVec F S512x512 .f32) (main_arg5 : FVec F S512 .f32) (main_arg6 : FVec F S512x512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_v13 main_v16
-- ==== Kernel.lean ====
abbrev S10000x512 : Shape := ⟨2, ![10000, 512]⟩
abbrev S2x150000 : Shape := ⟨2, ![2, 150000]⟩
abbrev S512 : Shape := ⟨1, ![512]⟩
abbrev S512x512 : Shape := ⟨2, ![512, 512]⟩
abbrev S1x512 : Shape := ⟨2, ![1, 512]⟩
abbrev S2000x512 : Shape := ⟨2, ![2000, 512]⟩
abbrev S2000 : Shape := ⟨1, ![2000]⟩
abbrev S2000x1 : Shape := ⟨2, ![2000, 1]⟩
abbrev S1x150000 : Shape := ⟨2, ![1, 150000]⟩
abbrev S150000 : Shape := ⟨1, ![150000]⟩
abbrev S_ : Shape := ⟨0, ![]⟩
abbrev S150000x1 : Shape := ⟨2, ![150000, 1]⟩
abbrev S150000x512 : Shape := ⟨2, ![150000, 512]⟩
abbrev S10000 : Shape := ⟨1, ![10000]⟩
abbrev S10000x1 : Shape := ⟨2, ![10000, 1]⟩

abbrev nBuf : Space → Nat
  | .hbm => 46
  | .vmem => 19
  | .smem => 0
  | _ => 0

abbrev bufTy : (tb : Table) → Fin (tcTables nBuf tb) → BufTy
  | .hbm, ⟨0, _⟩ => ⟨S10000x512, .f32⟩
  | .hbm, ⟨1, _⟩ => ⟨S2x150000, .i32⟩
  | .hbm, ⟨2, _⟩ => ⟨S512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S1x512, .f32⟩
  | .hbm, ⟨8, _⟩ => ⟨S1x512, .f32⟩
  | .hbm, ⟨9, _⟩ => ⟨S10000x512, .f32⟩
  | .hbm, ⟨10, _⟩ => ⟨S1x150000, .i32⟩
  | .hbm, ⟨11, _⟩ => ⟨S150000, .i32⟩
  | .hbm, ⟨12, _⟩ => ⟨S1x150000, .i32⟩
  | .hbm, ⟨13, _⟩ => ⟨S150000, .i32⟩
  | .hbm, ⟨14, _⟩ => ⟨S_, .i32⟩
  | .hbm, ⟨15, _⟩ => ⟨S150000, .i32⟩
  | .hbm, ⟨16, _⟩ => ⟨S150000, .i1⟩
  | .hbm, ⟨17, _⟩ => ⟨S_, .i32⟩
  | .hbm, ⟨18, _⟩ => ⟨S150000, .i32⟩
  | .hbm, ⟨19, _⟩ => ⟨S150000, .i32⟩
  | .hbm, ⟨20, _⟩ => ⟨S150000, .i32⟩
  | .hbm, ⟨21, _⟩ => ⟨S150000x1, .i32⟩
  | .hbm, ⟨22, _⟩ => ⟨S150000x512, .f32⟩
  | .hbm, ⟨23, _⟩ => ⟨S_, .f32⟩
  | .hbm, ⟨24, _⟩ => ⟨S10000x512, .f32⟩
  | .hbm, ⟨25, _⟩ => ⟨S150000x1, .i32⟩
  | .hbm, ⟨26, _⟩ => ⟨S10000x512, .f32⟩
  | .hbm, ⟨27, _⟩ => ⟨S_, .f32⟩
  | .hbm, ⟨28, _⟩ => ⟨S150000, .f32⟩
  | .hbm, ⟨29, _⟩ => ⟨S_, .f32⟩
  | .hbm, ⟨30, _⟩ => ⟨S10000, .f32⟩
  | .hbm, ⟨31, _⟩ => ⟨S150000x1, .i32⟩
  | .hbm, ⟨32, _⟩ => ⟨S10000, .f32⟩
  | .hbm, ⟨33, _⟩ => ⟨S_, .f32⟩
  | .hbm, ⟨34, _⟩ => ⟨S10000, .f32⟩
  | .hbm, ⟨35, _⟩ => ⟨S10000, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S10000x1, .f32⟩
  | .hbm, ⟨40, _⟩ => ⟨S512x512, .f32⟩
  | .hbm, ⟨41, _⟩ => ⟨S512x512, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S10000x512, .f32⟩
  | .local _ .vmem, ⟨0, _⟩ => ⟨S2000x512, .f32⟩
  | .local _ .vmem, ⟨1, _⟩ => ⟨S2000x512, .f32⟩
  | .local _ .vmem, ⟨2, _⟩ => ⟨S1x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S2000x512, .f32⟩
  | .local _ .vmem, ⟨8, _⟩ => ⟨S2000x1, .f32⟩
  | .local _ .vmem, ⟨9, _⟩ => ⟨S2000x1, .f32⟩
  | .local _ .vmem, ⟨10, _⟩ => ⟨S2000x512, .f32⟩
  | .local _ .vmem, ⟨11, _⟩ => ⟨S2000x512, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S1x512, .f32⟩
  | .local _ .vmem, ⟨16, _⟩ => ⟨S512x512, .f32⟩
  | .local _ .vmem, ⟨17, _⟩ => ⟨S2000x512, .f32⟩
  | .local _ .vmem, ⟨18, _⟩ => ⟨S2000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  reduces_S2000x512_S2000 : S2000x512.Reduces [1] S2000
  shapeCasts_S2000_S2000x1 : S2000.ShapeCasts S2000x1
  broadcasts_S2000x1_S2000x512 : S2000x1.Broadcasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S150000_S150000x1_0 : S150000.BroadcastsInDim S150000x1 (![0] : Fin 1 → Fin S150000x1.rank)
  bcast_S_S10000x512 : S_.BroadcastsInDim S10000x512 (![] : Fin 0 → Fin S10000x512.rank)
  bcast_S_S10000 : S_.BroadcastsInDim S10000 (![] : Fin 0 → Fin S10000.rank)
  shapeCasts_S10000_S10000x1 : S10000.ShapeCasts S10000x1
  transposes_S512x512_S512x512_1_0 : S512x512.Transposes [1, 0] S512x512
  shapeCasts_S2000x512_S2000x512 : S2000x512.ShapeCasts S2000x512
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  gather_S10000x512_S150000x1_S150000x512_1_0_n_n_0_1_1512_wf : GatherDims.WF S10000x512 S150000x1 S150000x512 [1] [0] [] [0] [] 1 ![1, 512]
  scatter_S10000x512_S150000x1_S150000x512_1_0_0_1_wf : ScatterDims.WF S10000x512 S150000x1 S150000x512 [1] [0] [0] 1
  scatter_S10000_S150000x1_S150000_n_0_0_1_wf : ScatterDims.WF S10000 S150000x1 S150000 [] [0] [0] 1
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S10000x512.size a
  hwx0_3 : ∀ i : grid0.Coords, EltTy.bits .f32 = 32 ∨ (Rect.block (s := S10000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S10000x512.size a
  hwx1_0 : ∀ i : grid1.Coords, EltTy.bits .f32 = 32 ∨ (Rect.block (s := S10000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S10000x1.size a
  hwx1_1 : ∀ i : grid1.Coords, EltTy.bits .f32 = 32 ∨ (Rect.block (s := S10000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S10000x512.size a
  hwx1_2 : ∀ i : grid1.Coords, EltTy.bits .f32 = 32 ∨ (Rect.block (s := S10000x512) S2000x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .f32 = 32 ∨ (Rect.block (s := S512x512) S512x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S512x512.size a
  hwx1_7 : ∀ i : grid1.Coords, EltTy.bits .f32 = 32 ∨ (Rect.block (s := S512x512) S512x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x512.size a ≤ S10000x512.size a
  hwx1_8 : ∀ i : grid1.Coords, EltTy.bits .f32 = 32 ∨ (Rect.block (s := S10000x512) S2000x512.size (cc1_transform_8 i) (hinb1_8 i)).WholeWords (EltTy.packing .f32)

variable [Facts₀]

def gather_S10000x512_S150000x1_S150000x512_1_0_n_n_0_1_1512 : GatherDims S10000x512 S150000x1 S150000x512 where
  offsetDims := [1]
  collapsedSliceDims := [0]
  operandBatchingDims := []
  startIndicesBatchingDims := []
  startIndexMap := [0]
  indexVectorDim := 1
  sliceSizes := ![1, 512]
  wf := gather_S10000x512_S150000x1_S150000x512_1_0_n_n_0_1_1512_wf
def scatter_S10000x512_S150000x1_S150000x512_1_0_0_1 : ScatterDims S10000x512 S150000x1 S150000x512 where
  updateWindowDims := [1]
  insertedWindowDims := [0]
  scatterDimsToOperandDims := [0]
  indexVectorDim := 1
  wf := scatter_S10000x512_S150000x1_S150000x512_1_0_0_1_wf
def scatter_S10000_S150000x1_S150000_n_0_0_1 : ScatterDims S10000 S150000x1 S150000 where
  updateWindowDims := []
  insertedWindowDims := [0]
  scatterDimsToOperandDims := [0]
  indexVectorDim := 1
  wf := scatter_S10000_S150000x1_S150000_n_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S512x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31) S2000x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x150000 : Shape := ⟨2, ![2, 150000]⟩
abbrev S512 : Shape := ⟨1, ![512]⟩
abbrev S512x512 : Shape := ⟨2, ![512, 512]⟩
abbrev S_ : Shape := ⟨0, ![]⟩
abbrev S10000 : Shape := ⟨1, ![10000]⟩
abbrev S10000x1 : Shape := ⟨2, ![10000, 1]⟩
abbrev S1x512 : Shape := ⟨2, ![1, 512]⟩
abbrev S1x150000 : Shape := ⟨2, ![1, 150000]⟩
abbrev S150000 : Shape := ⟨1, ![150000]⟩
abbrev S150000x1 : Shape := ⟨2, ![150000, 1]⟩
abbrev S150000x512 : Shape := ⟨2, ![150000, 512]⟩

abbrev nBuf : Space → Nat
  | .hbm => 77
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x150000, .i32⟩
  | .hbm, ⟨2, _⟩ => ⟨S512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S_, .f32⟩
  | .hbm, ⟨8, _⟩ => ⟨S10000, .f32⟩
  | .hbm, ⟨9, _⟩ => ⟨S10000x1, .f32⟩
  | .hbm, ⟨10, _⟩ => ⟨S_, .f32⟩
  | .hbm, ⟨11, _⟩ => ⟨S10000x1, .f32⟩
  | .hbm, ⟨12, _⟩ => ⟨S10000x1, .f32⟩
  | .hbm, ⟨13, _⟩ => ⟨S10000x512, .f32⟩
  | .hbm, ⟨14, _⟩ => ⟨S10000x512, .f32⟩
  | .hbm, ⟨15, _⟩ => ⟨S10000x512, .f32⟩
  | .hbm, ⟨16, _⟩ => ⟨S_, .f32⟩
  | .hbm, ⟨17, _⟩ => ⟨S10000, .f32⟩
  | .hbm, ⟨18, _⟩ => ⟨S10000x1, .f32⟩
  | .hbm, ⟨19, _⟩ => ⟨S_, .f32⟩
  | .hbm, ⟨20, _⟩ => ⟨S10000x1, .f32⟩
  | .hbm, ⟨21, _⟩ => ⟨S10000x1, .f32⟩
  | .hbm, ⟨22, _⟩ => ⟨S10000x512, .f32⟩
  | .hbm, ⟨23, _⟩ => ⟨S10000x512, .f32⟩
  | .hbm, ⟨24, _⟩ => ⟨S_, .f32⟩
  | .hbm, ⟨25, _⟩ => ⟨S10000x1, .f32⟩
  | .hbm, ⟨26, _⟩ => ⟨S10000x1, .f32⟩
  | .hbm, ⟨27, _⟩ => ⟨S10000x1, .f32⟩
  | .hbm, ⟨28, _⟩ => ⟨S10000x512, .f32⟩
  | .hbm, ⟨29, _⟩ => ⟨S10000x512, .f32⟩
  | .hbm, ⟨30, _⟩ => ⟨S1x512, .f32⟩
  | .hbm, ⟨31, _⟩ => ⟨S10000x512, .f32⟩
  | .hbm, ⟨32, _⟩ => ⟨S10000x512, .f32⟩
  | .hbm, ⟨33, _⟩ => ⟨S1x512, .f32⟩
  | .hbm, ⟨34, _⟩ => ⟨S10000x512, .f32⟩
  | .hbm, ⟨35, _⟩ => ⟨S10000x512, .f32⟩
  | .hbm, ⟨36, _⟩ => ⟨S1x150000, .i32⟩
  | .hbm, ⟨37, _⟩ => ⟨S150000, .i32⟩
  | .hbm, ⟨38, _⟩ => ⟨S1x150000, .i32⟩
  | .hbm, ⟨39, _⟩ => ⟨S150000, .i32⟩
  | .hbm, ⟨40, _⟩ => ⟨S_, .i32⟩
  | .hbm, ⟨41, _⟩ => ⟨S150000, .i32⟩
  | .hbm, ⟨42, _⟩ => ⟨S150000, .i1⟩
  | .hbm, ⟨43, _⟩ => ⟨S_, .i32⟩
  | .hbm, ⟨44, _⟩ => ⟨S150000, .i32⟩
  | .hbm, ⟨45, _⟩ => ⟨S150000, .i32⟩
  | .hbm, ⟨46, _⟩ => ⟨S150000, .i32⟩
  | .hbm, ⟨47, _⟩ => ⟨S150000x1, .i32⟩
  | .hbm, ⟨48, _⟩ => ⟨S150000x512, .f32⟩
  | .hbm, ⟨49, _⟩ => ⟨S_, .f32⟩
  | .hbm, ⟨50, _⟩ => ⟨S10000x512, .f32⟩
  | .hbm, ⟨51, _⟩ => ⟨S150000x1, .i32⟩
  | .hbm, ⟨52, _⟩ => ⟨S10000x512, .f32⟩
  | .hbm, ⟨53, _⟩ => ⟨S_, .f32⟩
  | .hbm, ⟨54, _⟩ => ⟨S150000, .f32⟩
  | .hbm, ⟨55, _⟩ => ⟨S_, .f32⟩
  | .hbm, ⟨56, _⟩ => ⟨S10000, .f32⟩
  | .hbm, ⟨57, _⟩ => ⟨S150000x1, .i32⟩
  | .hbm, ⟨58, _⟩ => ⟨S10000, .f32⟩
  | .hbm, ⟨59, _⟩ => ⟨S_, .f32⟩
  | .hbm, ⟨60, _⟩ => ⟨S10000, .f32⟩
  | .hbm, ⟨61, _⟩ => ⟨S10000, .f32⟩
  | .hbm, ⟨62, _⟩ => ⟨S10000x1, .f32⟩
  | .hbm, ⟨63, _⟩ => ⟨S10000x512, .f32⟩
  | .hbm, ⟨64, _⟩ => ⟨S10000x512, .f32⟩
  | .hbm, ⟨65, _⟩ => ⟨S512x512, .f32⟩
  | .hbm, ⟨66, _⟩ => ⟨S10000x512, .f32⟩
  | .hbm, ⟨67, _⟩ => ⟨S1x512, .f32⟩
  | .hbm, ⟨68, _⟩ => ⟨S10000x512, .f32⟩
  | .hbm, ⟨69, _⟩ => ⟨S10000x512, .f32⟩
  | .hbm, ⟨70, _⟩ => ⟨S512x512, .f32⟩
  | .hbm, ⟨71, _⟩ => ⟨S10000x512, .f32⟩
  | .hbm, ⟨72, _⟩ => ⟨S10000x512, .f32⟩
  | .hbm, ⟨73, _⟩ => ⟨S_, .f32⟩
  | .hbm, ⟨74, _⟩ => ⟨S10000x512, .f32⟩
  | .hbm, ⟨75, _⟩ => ⟨S10000x512, .f32⟩
  | .hbm, ⟨76, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call0_cst : Ref sig .tc := ⟨.hbm, 73, rfl⟩
abbrev main_call0_v0 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]

class Facts₀ : Prop where
  reducesTo_S10000x512_S10000_d1 : S10000x512.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x512_0_1 : S10000x1.BroadcastsInDim S10000x512 (![0, 1] : Fin 2 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S150000_S150000x1_0 : S150000.BroadcastsInDim S150000x1 (![0] : Fin 1 → Fin S150000x1.rank)
  bcast_S_S10000x512 : S_.BroadcastsInDim S10000x512 (![] : Fin 0 → Fin S10000x512.rank)
  bcast_S_S10000 : S_.BroadcastsInDim S10000 (![] : Fin 0 → Fin S10000.rank)
  transposes_S512x512_S512x512_1_0 : S512x512.Transposes [1, 0] S512x512
  gather_S10000x512_S150000x1_S150000x512_1_0_n_n_0_1_1512_wf : GatherDims.WF S10000x512 S150000x1 S150000x512 [1] [0] [] [0] [] 1 ![1, 512]
  scatter_S10000x512_S150000x1_S150000x512_1_0_0_1_wf : ScatterDims.WF S10000x512 S150000x1 S150000x512 [1] [0] [0] 1
  scatter_S10000_S150000x1_S150000_n_0_0_1_wf : ScatterDims.WF S10000 S150000x1 S150000 [] [0] [0] 1
  dot_S10000x512_S512x512_S10000x512_1_0_0_1_n_n_wf : DotDims.WF S10000x512 S512x512 S10000x512 [1] [0] [0] [1] [] []

variable [Facts₀]

def gather_S10000x512_S150000x1_S150000x512_1_0_n_n_0_1_1512 : GatherDims S10000x512 S150000x1 S150000x512 where
  offsetDims := [1]
  collapsedSliceDims := [0]
  operandBatchingDims := []
  startIndicesBatchingDims := []
  startIndexMap := [0]
  indexVectorDim := 1
  sliceSizes := ![1, 512]
  wf := gather_S10000x512_S150000x1_S150000x512_1_0_n_n_0_1_1512_wf
def scatter_S10000x512_S150000x1_S150000x512_1_0_0_1 : ScatterDims S10000x512 S150000x1 S150000x512 where
  updateWindowDims := [1]
  insertedWindowDims := [0]
  scatterDimsToOperandDims := [0]
  indexVectorDim := 1
  wf := scatter_S10000x512_S150000x1_S150000x512_1_0_0_1_wf
def scatter_S10000_S150000x1_S150000_n_0_0_1 : ScatterDims S10000 S150000x1 S150000 where
  updateWindowDims := []
  insertedWindowDims := [0]
  scatterDimsToOperandDims := [0]
  indexVectorDim := 1
  wf := scatter_S10000_S150000x1_S150000_n_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.KernelRun.lean ====
/-
  The idealised kernel's run with its result named.  The program is four segments: a stretch of host operations, the
  normalisation region, a second stretch of host operations (the gather, the two scatter-adds, the reciprocal count, the
  transposes), and the transform region.  The contents of every buffer at each segment boundary are a fold from the launch
  memory; at the last boundary the result buffer holds what the transform region's write-backs leave in its output
  array, and each argument buffer holds what it held at launch.  The statement below reads the final memory against that
  last boundary for the result buffer as well as for the arguments.
-/
import proofs.«174351_j56375740727935_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the transform
    region's output array after all its write-backs, taken at the buffer contents that region was entered with, and
    every argument buffer holds its launch contents. -/
theorem run_value : θ_run defs (onTc (τ := τ) (main (F := F))) ⟨m, fun _ => 0, ρ⟩ (fun r => ∀ c : Dev nD,
      r.2.mem ((c.tc : Thread nD τ).loc main_v31) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v31 (by decide))).trans (W4_arr m ρ c 8),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.RunValue

end
-- ==== Proof.HostStretch.lean ====
/-
  The host operations around the two regions, read as values.

  Before the normalisation region the host only re-lays the scale and the shift, [512] as [1, 512].  Between the regions
  it gathers the rows of the normalised array at the source node of every edge (a negative index wrapped by the node
  count first), scatter-adds them at the destination nodes into zeros (the neighbour sums), scatter-adds ones the same
  way (the neighbour counts), raises the counts to at least one, takes 1 / count and re-lays it as a column [10000, 1],
  transposes the two weight matrices and re-lays scale, shift and bias as rows.  These are the same operations, on the
  same edge list, that the reference applies to its own normalised array: each array the transform region is entered
  with is stated here in the reference's stages, so that the two sides meet as the same term and the gather and the
  scatter-adds are never opened.  An argument buffer is written by no host operation and by no region, so at every
  boundary it still holds its launch contents.
-/
import proofs.«174351_j56375740727935_2_alg».proof.Proof.Gen.KernelIdeal.Frame
import proofs.«174351_j56375740727935_2_alg».proof.Proof.Gen.ReferenceIdeal.Read

set_option maxRecDepth 16384

noncomputable section

namespace Cert.KernelIdeal.HostValue

open Cert.KernelIdeal Cert.KernelIdeal.Gen
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg)

/-! ## The first stretch: what the normalisation region is entered with -/

theorem V1_arg0 (c : Dev nD) : V1 m ρ c main_arg0 = m ((c : Thread nD τ).loc main_arg0) := by
  show StableHlo.after hostOps0 (W0 m ρ c) (Proc.devRef .tc main_arg0) = _
  after_results

theorem V1_v0 (c : Dev nD) :
    V1 m ρ c main_v0 = shapeCast S1x512 (m ((c : Thread nD τ).loc main_arg2)) Facts₀.shapeCasts_S512_S1x512 := by
  show StableHlo.after hostOps0 (W0 m ρ c) (Proc.devRef .tc main_v0) = _
  after_results
  rfl

theorem V1_v1 (c : Dev nD) :
    V1 m ρ c main_v1 = shapeCast S1x512 (m ((c : Thread nD τ).loc main_arg3)) Facts₀.shapeCasts_S512_S1x512 := by
  show StableHlo.after hostOps0 (W0 m ρ c) (Proc.devRef .tc main_v1) = _
  after_results
  rfl

/-! ## The arguments at the boundary after the normalisation region -/

theorem W1_of_arg (c : Dev nD) (b : Ref sig .tc) (hb : b ≠ main_v0 ∧ b ≠ main_v1) :
    W1 m ρ c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne hb.1, StableHlo.devRef_ne_of_ne hb.2⟩))

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (V1_arg0 m ρ c)
theorem W2_arg1 (c : Dev nD) : W2 m ρ c (Proc.devRef .tc main_arg1) = m ((c : Thread nD τ).loc main_arg1) :=
  (W2_of_ne m ρ c main_arg1 (by decide)).trans (W1_of_arg m ρ c main_arg1 (by decide))
theorem W2_arg2 (c : Dev nD) : W2 m ρ c (Proc.devRef .tc main_arg2) = m ((c : Thread nD τ).loc main_arg2) :=
  (W2_of_ne m ρ c main_arg2 (by decide)).trans (W1_of_arg m ρ c main_arg2 (by decide))
theorem W2_arg3 (c : Dev nD) : W2 m ρ c (Proc.devRef .tc main_arg3) = m ((c : Thread nD τ).loc main_arg3) :=
  (W2_of_ne m ρ c main_arg3 (by decide)).trans (W1_of_arg m ρ c main_arg3 (by decide))
theorem W2_arg4 (c : Dev nD) : W2 m ρ c (Proc.devRef .tc main_arg4) = m ((c : Thread nD τ).loc main_arg4) :=
  (W2_of_ne m ρ c main_arg4 (by decide)).trans (W1_of_arg m ρ c main_arg4 (by decide))
theorem W2_arg5 (c : Dev nD) : W2 m ρ c (Proc.devRef .tc main_arg5) = m ((c : Thread nD τ).loc main_arg5) :=
  (W2_of_ne m ρ c main_arg5 (by decide)).trans (W1_of_arg m ρ c main_arg5 (by decide))
theorem W2_arg6 (c : Dev nD) : W2 m ρ c (Proc.devRef .tc main_arg6) = m ((c : Thread nD τ).loc main_arg6) :=
  (W2_of_ne m ρ c main_arg6 (by decide)).trans (W1_of_arg m ρ c main_arg6 (by decide))

/-! ## The second stretch: what the transform region is entered with -/

theorem V3_arg0 (c : Dev nD) : V3 m ρ c main_arg0 = m ((c : Thread nD τ).loc main_arg0) := by
  show StableHlo.after hostOps1 (W2 m ρ c) (Proc.devRef .tc main_arg0) = _
  after_results
  exact W2_arg0 m ρ c

theorem V3_v28 (c : Dev nD) :
    V3 m ρ c main_v28 = shapeCast S1x512 (m ((c : Thread nD τ).loc main_arg2)) Facts₀.shapeCasts_S512_S1x512 := by
  show StableHlo.after hostOps1 (W2 m ρ c) (Proc.devRef .tc main_v28) = _
  after_results
  rw [W2_arg2]
  rfl

theorem V3_v29 (c : Dev nD) :
    V3 m ρ c main_v29 = shapeCast S1x512 (m ((c : Thread nD τ).loc main_arg3)) Facts₀.shapeCasts_S512_S1x512 := by
  show StableHlo.after hostOps1 (W2 m ρ c) (Proc.devRef .tc main_v29) = _
  after_results
  rw [W2_arg3]
  rfl

theorem V3_v30 (c : Dev nD) :
    V3 m ρ c main_v30 = shapeCast S1x512 (m ((c : Thread nD τ).loc main_arg5)) Facts₀.shapeCasts_S512_S1x512 := by
  show StableHlo.after hostOps1 (W2 m ρ c) (Proc.devRef .tc main_v30) = _
  after_results
  rw [W2_arg5]
  rfl

theorem V3_v26 (c : Dev nD) :
    V3 m ρ c main_v26 = Cert.ReferenceIdeal.Read.val_main_v47 (F := Ideal) (m ((c : Thread nD τ).loc main_arg4)) := by
  show StableHlo.after hostOps1 (W2 m ρ c) (Proc.devRef .tc main_v26) = _
  after_results
  rw [W2_arg4]
  rfl

theorem V3_v27 (c : Dev nD) :
    V3 m ρ c main_v27 = Cert.ReferenceIdeal.Read.val_main_v52 (F := Ideal) (m ((c : Thread nD τ).loc main_arg6)) := by
  show StableHlo.after hostOps1 (W2 m ρ c) (Proc.devRef .tc main_v27) = _
  after_results
  rw [W2_arg6]
  rfl

/-- The neighbour sums of an array along the edge list, in the reference's stages: the rows of `x` gathered at the
    (wrapped) source indices and scatter-added at the destination indices into zeros. -/
def summed (x : (⟨Cert.ReferenceIdeal.S10000x512, .f32⟩ : BufTy).Contents (Elt Ideal))
    (e : (⟨Cert.ReferenceIdeal.S2x150000, .i32⟩ : BufTy).Contents (Elt Ideal)) :
    (⟨Cert.ReferenceIdeal.S10000x512, .f32⟩ : BufTy).Contents (Elt Ideal) :=
  Host.scatterAdd (F := Ideal) (φ := .f32) Cert.ReferenceIdeal.scatter_S10000x512_S150000x1_S150000x512_1_0_0_1 (Cert.ReferenceIdeal.Read.val_main_v35 (F := Ideal))
    (Cert.ReferenceIdeal.Read.val_main_v36 (F := Ideal) e)
    (Host.gather Cert.ReferenceIdeal.gather_S10000x512_S150000x1_S150000x512_1_0_n_n_0_1_1512 x (Cert.ReferenceIdeal.Read.val_main_v33 (F := Ideal) e))

/-- The reference's own neighbour-sum stage is this function of its normalised array. -/
theorem ref_summed (x0 : (⟨Cert.ReferenceIdeal.S10000x512, .f32⟩ : BufTy).Contents (Elt Ideal))
    (x1 : (⟨Cert.ReferenceIdeal.S2x150000, .i32⟩ : BufTy).Contents (Elt Ideal))
    (x2 x3 : (⟨Cert.ReferenceIdeal.S512, .f32⟩ : BufTy).Contents (Elt Ideal)) :
    Cert.ReferenceIdeal.Read.val_main_v37 (F := Ideal) x0 x1 x2 x3
      = summed (Cert.ReferenceIdeal.Read.val_main_v23 (F := Ideal) x0 x2 x3) x1 := rfl

/-- The normalisation region's output array, at the boundary after it, is what its write-backs leave. -/
theorem W2_v2 (c : Dev nD) : W2 m ρ c (Proc.devRef .tc main_v2) = (dat0 (V1 m ρ) c).arrAt 3 cfg0.N := W2_arr m ρ c 3

theorem V3_v16 (c : Dev nD) :
    V3 m ρ c main_v16 = summed (W2 m ρ c (Proc.devRef .tc main_v2)) (m ((c : Thread nD τ).loc main_arg1)) := by
  show StableHlo.after hostOps1 (W2 m ρ c) (Proc.devRef .tc main_v16) = _
  after_results
  rw [W2_arg1]
  rfl

theorem V3_v25 (c : Dev nD) :
    V3 m ρ c main_v25 = (shapeCast S10000x1 (Host.divf (F := Ideal) (φ := .f32) (s := S10000) (Cert.ReferenceIdeal.Read.val_main_v42 (F := Ideal))
      (Cert.ReferenceIdeal.Read.val_main_v43 (F := Ideal) (m ((c : Thread nD τ).loc main_arg1)))) Facts₀.shapeCasts_S10000_S10000x1 : FVec Ideal S10000x1 .f32) := by
  show StableHlo.after hostOps1 (W2 m ρ c) (Proc.devRef .tc main_v25) = _
  after_results
  rw [W2_arg1]
  rfl

end Cert.KernelIdeal.HostValue
end
-- ==== Proof.Spec.lean ====
/-
  The mathematics of the graph layer, entry by entry, on the extended reals.

  A row x of 512 features is normalised: with m = (sum_k x_k) / 512 and v = (sum_k (x_k - m)^2) / 512,
  the normalised entry j is ((x_j - m) * (v + eps)^(-1/2)) * g_j + b_j  (`lnAt`).
  The layer's output at node r, feature j, from the neighbour sum S, the reciprocal neighbour count inv,
  the raw features, the normalisation's scale and shift, the two weight matrices (already transposed: entry (k, j)
  multiplies input feature k into output feature j) and the bias row, is
      max ( sum_k (S_rk * inv_r) * wl_kj  +  sum_k LN(raw)_rk * wr_kj  +  bl_j , 0 )  +  raw_rj      (`outAt`).
  `lnArr` and `outArr` are these as whole arrays over literal shapes.  The float words (512, eps, 0) are kept as the
  patterns both programs print; none is evaluated here.
-/
import Idealize.ShloMosaic.Lib.ValueIdx
import Idealize.ShloMosaic.PureOps.Ideal.Laws

noncomputable section

open scoped BigOperators

namespace Cert.Sage

open Idealize.ShloMosaic Idealize.ShloMosaic.ValueIdx

/-- Arrays of extended reals over the literal shapes of the layer. -/
abbrev Arr (n0 n1 : Nat) : Type := (⟨2, ![n0, n1]⟩ : Shape).Idx → EReal

/-- The mean of a row of 512 entries: the sum divided by the word 512.0. -/
def rowMean (x : Fin 512 → EReal) : EReal := Ideal.div (∑ k, x k) (Ideal.ofBits .f32 0x44000000#32)

/-- The (biased) variance of a row: the mean of the squared deviations from the row's mean. -/
def rowVar (x : Fin 512 → EReal) : EReal :=
  Ideal.div (∑ k, (x k - rowMean x) * (x k - rowMean x)) (Ideal.ofBits .f32 0x44000000#32)

/-- Entry `j` of the normalised row, scaled by `g` and shifted by `b`. -/
def lnAt (x : Fin 512 → EReal) (g b : EReal) (j : Fin 512) : EReal :=
  (x j - rowMean x) * Ideal.rsqrt (rowVar x + Ideal.ofBits .f32 0x3727C5AC#32) * g + b

/-- The normalisation of the array `a` at row `r`, column `j`, with scale row `g` and shift row `b`. -/
def lnEntry (a : Arr 10000 512) (g b : Arr 1 512) (r : Fin 10000) (j : Fin 512) : EReal :=
  lnAt (fun k => a (ix2 r k)) (g (ix2 0 j)) (b (ix2 0 j)) j

/-- The normalised array. -/
def lnArr (a : Arr 10000 512) (g b : Arr 1 512) : Arr 10000 512 :=
  fun i => lnEntry a g b ⟨(i 0).val, (i 0).isLt⟩ ⟨(i 1).val, (i 1).isLt⟩

theorem lnArr_ix2 (a : Arr 10000 512) (g b : Arr 1 512) (r : Fin 10000) (j : Fin 512) :
    lnArr a g b (ix2 r j) = lnEntry a g b r j := rfl

/-- One output entry from its row of neighbour sums `s`, its row of normalised features `x`, the reciprocal count
    `inv`, the two weight columns, the bias entry and the raw entry. -/
def outAt (s x : Fin 512 → EReal) (inv : EReal) (wl wr : Fin 512 → EReal) (bl raw : EReal) : EReal :=
  max (((∑ k, (s k * inv) * wl k) + ∑ k, x k * wr k) + bl) (Ideal.ofBits .f32 0x00000000#32) + raw

/-- The layer's output at node `r`, feature `j`. -/
def outEntry (S : Arr 10000 512) (inv : Arr 10000 1) (raw : Arr 10000 512) (g b : Arr 1 512) (wl : Arr 512 512)
    (bl : Arr 1 512) (wr : Arr 512 512) (r : Fin 10000) (j : Fin 512) : EReal :=
  outAt (fun k => S (ix2 r k)) (fun k => lnEntry raw g b r k) (inv (ix2 r 0)) (fun k => wl (ix2 k j))
    (fun k => wr (ix2 k j)) (bl (ix2 0 j)) (raw (ix2 r j))

/-- The layer's output array. -/
def outArr (S : Arr 10000 512) (inv : Arr 10000 1) (raw : Arr 10000 512) (g b : Arr 1 512) (wl : Arr 512 512)
    (bl : Arr 1 512) (wr : Arr 512 512) : Arr 10000 512 :=
  fun i => outEntry S inv raw g b wl bl wr ⟨(i 0).val, (i 0).isLt⟩ ⟨(i 1).val, (i 1).isLt⟩

theorem outArr_ix2 (S : Arr 10000 512) (inv : Arr 10000 1) (raw : Arr 10000 512) (g b : Arr 1 512) (wl : Arr 512 512)
    (bl : Arr 1 512) (wr : Arr 512 512) (r : Fin 10000) (j : Fin 512) :
    outArr S inv raw g b wl bl wr (ix2 r j) = outEntry S inv raw g b wl bl wr r j := rfl

end Cert.Sage

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.LnBody.lean ====
/-
  The row normalisation computed by the body of the first region, read at one entry.

  For a block x of 2000 rows by 512 features, a scale row g and a shift row b, the body forms, row by row,
  the mean m_p = (sum_k x_pk) / 512 as a column, the centred block x_pk - m_p, the column of variances
  v_p = (sum_k (x_pk - m_p)^2) / 512, and returns ((x_pj - m_p) * (v_p + eps)^(-1/2)) * g_j + b_j.
  Each lane sum is the finite sum over the row's 512 entries; a column [2000, 1] spread over the lanes reads its
  row's entry; a row [1, 512] spread over the rows reads its column's entry.  Entry (p, j) therefore depends on
  row p of the block and on entry j of each of the two rows, and equals the specification's `lnAt`.
-/
import proofs.«174351_j56375740727935_2_alg».proof.Proof.Gen.KernelIdeal.Skeleton
import proofs.«174351_j56375740727935_2_alg».proof.Proof.Spec
import proofs.«174351_j56375740727935_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.ShloMosaic.ValueIdx Idealize.SL.Sem
open Cert.KernelIdeal Cert.KernelIdeal.Gen

namespace Cert.KernelIdeal.LnValue

/-- A sum over the 512 lanes of a [2000, 512] block, read at row `p`: the sum of that row's entries (the index
    inserted on the reduced axis is the lane `k`, the kept coordinate is the row). -/
theorem laneSum_apply (src : FVec Ideal S2000x512 .f32) (h : S2000x512.Reduces [1] S2000) (hφ : FKind.Formats .f32)
    (hacc : (0x00000000#32 : BitVec 32) = FKind.add.neutral .f32 hφ) (p : Fin 2000) :
    multiReduction (F := Ideal) .add [1] S2000 src 0x00000000#32 h hφ hacc (ix1 p) = ∑ k : Fin 512, src (ix2 p k) := by
  refine (Ideal.multiReduction_add_single src _ h hφ hacc (ix1 p)).trans ?_
  refine Finset.sum_congr rfl fun k _ => congrArg src ?_
  funext a
  match a with
  | ⟨0, _⟩ => rfl
  | ⟨1, _⟩ => rfl

/-- The column [2000, 1] of row means of a block: the lane sum, kept as a column, over the word 512.0. -/
def meanCol (src : FVec Ideal S2000x512 .f32) : FVec Ideal S2000x1 .f32 :=
  divf (shapeCast S2000x1
      (multiReduction (F := Ideal) .add [1] S2000 src 0x00000000#32 reduces_S2000x512_S2000 (.inl rfl) rfl)
      shapeCasts_S2000_S2000x1)
    (broadcast S2000x1 (Scalar.ofBits (F := Ideal) .f32 0x44000000#32))

/-- Its entry in row `p` is the mean of row `p`. -/
theorem meanCol_apply (src : FVec Ideal S2000x512 .f32) (p : Fin 2000) (u : Fin 1) :
    meanCol src (ix2 p u) = Cert.Sage.rowMean (fun k => src (ix2 p k)) := by
  unfold meanCol
  rw [divf_apply, broadcast_apply, PhysLoss.shapeCast_a_a1_apply]
  exact congrArg (fun s => Ideal.div s (Ideal.ofBits .f32 0x44000000#32)) (laneSum_apply src _ _ _ p)

/-- A block minus its row means spread back over the lanes. -/
def centered (src : FVec Ideal S2000x512 .f32) : FVec Ideal S2000x512 .f32 :=
  subf src (broadcastTo S2000x512 (meanCol src) broadcasts_S2000x1_S2000x512)

/-- Entry (p, k) of the centred block is the entry minus the mean of its row. -/
theorem centered_apply (src : FVec Ideal S2000x512 .f32) (p : Fin 2000) (k : Fin 512) :
    centered src (ix2 p k) = src (ix2 p k) - Cert.Sage.rowMean (fun k' => src (ix2 p k')) := by
  unfold centered
  rw [subf_apply, PhysLoss.broadcastTo_a1_ab_apply, meanCol_apply]

/-- The mean of the squared centred block in row `p` is the variance of row `p`. -/
theorem varCol_apply (src : FVec Ideal S2000x512 .f32) (p : Fin 2000) (u : Fin 1) :
    meanCol (mulf (centered src) (centered src)) (ix2 p u) = Cert.Sage.rowVar (fun k => src (ix2 p k)) := by
  rw [meanCol_apply]
  unfold Cert.Sage.rowVar Cert.Sage.rowMean
  refine congrArg (fun s => Ideal.div s _) (Finset.sum_congr rfl fun k _ => ?_)
  show mulf (centered src) (centered src) (ix2 p k) = _
  rw [mulf_apply, centered_apply]
  rfl

theorem pay_ln (x0 : Vec Ideal S2000x512 .f32) (x1 x2 : Vec Ideal S1x512 .f32) (p : Fin 2000) (j : Fin 512) :
    Gen.k0_pay1 (F := Ideal) x0 x1 x2 (ix2 p j)
      = Cert.Sage.lnAt (fun k => x0 (ix2 p k)) (x1 (ix2 0 j)) (x2 (ix2 0 j)) j := by
  have hstruct : Gen.k0_pay1 (F := Ideal) x0 x1 x2
      = addf (mulf (mulf (centered x0)
            (broadcastTo S2000x512
              (rsqrt (addf (meanCol (mulf (centered x0) (centered x0)))
                (broadcast S2000x1 (Scalar.ofBits (F := Ideal) .f32 0x3727C5AC#32))))
              broadcasts_S2000x1_S2000x512))
          (broadcastTo S2000x512 (shapeCast S1x512 x1 shapeCasts_S1x512_S1x512) broadcasts_S1x512_S2000x512))
        (broadcastTo S2000x512 (shapeCast S1x512 x2 shapeCasts_S1x512_S1x512) broadcasts_S1x512_S2000x512) := rfl
  rw [hstruct, addf_apply, mulf_apply, mulf_apply, centered_apply, PhysLoss.broadcastTo_a1_ab_apply,
    broadcastTo_1b_ab_apply, broadcastTo_1b_ab_apply, shapeCast_self, shapeCast_self]
  show (x0 (ix2 p j) - _) * Ideal.rsqrt (meanCol (mulf (centered x0) (centered x0)) (ix2 p 0) + _) * _ + _ = _
  rw [varCol_apply]
  rfl

/-- The second region's recomputation of the same normalisation is the same term. -/
theorem pay_ln' (x0 : Vec Ideal S2000x512 .f32) (x1 x2 : Vec Ideal S1x512 .f32) (p : Fin 2000) (j : Fin 512) :
    Gen.k1_pay2 (F := Ideal) x0 x1 x2 (ix2 p j)
      = Cert.Sage.lnAt (fun k => x0 (ix2 p k)) (x1 (ix2 0 j)) (x2 (ix2 0 j)) j :=
  pay_ln x0 x1 x2 p j

end Cert.KernelIdeal.LnValue

end
-- ==== Proof.LnRegion.lean ====
/-
  What the first region leaves in its output array, as a whole: the row normalisation of the input array.

  The region runs over five grid points.  At point t the input window holds rows 2000 t … 2000 t + 1999 of the
  [10000, 512] array (all 512 columns), the scale and shift windows hold the whole [1, 512] rows at every point, and
  the output window writes back rows 2000 t … 2000 t + 1999.  Entry (p, j) of the body's result at point t depends on
  row 2000 t + p of the input and on entry j of the scale and shift rows, and is the normalised entry
  (2000 t + p, j); so what each point writes back is its block of the normalised array.  The five blocks tile the
  10000 rows (row r lies in the block of point r / 2000), hence the output array ends as the normalised array.
-/
import proofs.«174351_j56375740727935_2_alg».proof.Proof.LnBody
import proofs.«174351_j56375740727935_2_alg».proof.Proof.Gen.KernelIdeal.Frame
import Idealize.ShloMosaic.Lib.Pipeline.Value

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen

namespace Cert.KernelIdeal.LnValue

variable (V : (c : Dev nD) → (b : Ref sig .tc) → Buf (Elt Ideal) ((c : Thread nD τ).loc b))

/-- The zero offsets of a whole-buffer access, as a constant function. -/
theorem zero_offsets : (![0, 0] : Fin 2 → Nat) = fun _ => 0 := funext fun a => by fin_cases a <;> rfl

/-- The block index of each window at each of the five grid points: the input and the output move down the rows with
    the point, the scale and the shift stay at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of the body's result on blocks that are rows of the arrays. -/
theorem block_entry (a : Cert.Sage.Arr 10000 512) (g b : Cert.Sage.Arr 1 512)
    (x0 : Vec Ideal S2000x512 .f32) (x1 x2 : Vec Ideal S1x512 .f32) (p : Fin 2000) (j : Fin 512) (r : Fin 10000)
    (h0 : ∀ k : Fin 512, x0 (ix2 p k) = a (ix2 r k))
    (h1 : ∀ k : Fin 512, x1 (ix2 0 k) = g (ix2 0 k))
    (h2 : ∀ k : Fin 512, x2 (ix2 0 k) = b (ix2 0 k)) :
    Gen.k0_pay1 (F := Ideal) x0 x1 x2 (ix2 p j) = Cert.Sage.lnArr a g b (ix2 r j) := by
  rw [pay_ln, Cert.Sage.lnArr_ix2]
  unfold Cert.Sage.lnEntry
  rw [h1, h2, funext h0]

/-- What point `t` writes back is block `t` of the normalised array. -/
theorem flushed_eq (c : Dev nD) (t : Fin cfg0.N) :
    (Gen.dat0 (F := Ideal) V c).flushed 3 t
      = ((cfg0.win 3).blk t).view.read (Elt Ideal) (Cert.Sage.lnArr (V c main_arg0) (V c main_v0) (V c main_v1)) := by
  show (cfg0.win 3).cut (grid0.coords t) ((Gen.dat0 V c).after 3 t) = _
  rw [Gen.after0_3]
  unfold Gen.out0_3
  rw [View.canon_unit_zero zero_offsets]
  simp only [View.ld_unit_zero (S := S2000x512) zero_offsets, View.ld_unit_zero (S := S1x512) zero_offsets]
  refine funext fun (y : S2000x512.Idx) => ?_
  obtain ⟨p, j, rfl⟩ : ∃ (p : Fin 2000) (j : Fin 512), y = ix2 p j := ⟨y 0, y 1, eq_ix2 y⟩
  obtain ⟨e00, e01, e10, e11, e20, e21, e30, e31⟩ := index_facts t
  have ht : t.val < 5 := t.isLt
  have hr : t.val * 2000 + p.val < 10000 := by have := p.isLt; omega
  have hemb : ((cfg0.win 3).blk t).view.emb (ix2 p j) = ix2 (⟨t.val * 2000 + p.val, hr⟩ : Fin 10000) j := by
    funext a; apply Fin.ext
    match a with
    | ⟨0, _⟩ => show win0_3.index t (0 : Fin 2) * 2000 + 1 * p.val = t.val * 2000 + p.val; rw [e30]; omega
    | ⟨1, _⟩ => show win0_3.index t (1 : Fin 2) * 512 + 1 * j.val = j.val; rw [e31]; omega
  show Gen.k0_pay1 (F := Ideal) (iblk0 V c 0 t) (iblk0 V c 1 t) (iblk0 V c 2 t) (ix2 p j)
    = Cert.Sage.lnArr (V c main_arg0) (V c main_v0) (V c main_v1) (((cfg0.win 3).blk t).view.emb (ix2 p j))
  rw [hemb]
  refine block_entry (V c main_arg0) (V c main_v0) (V c main_v1) (iblk0 V c 0 t) (iblk0 V c 1 t) (iblk0 V c 2 t) p j
    ⟨_, hr⟩ (fun k => ?_) (fun k => ?_) (fun k => ?_)
  · show V c main_arg0 (((cfg0.win 0).blk t).view.emb (ix2 p k)) = _
    refine congrArg _ ?_
    funext a; apply Fin.ext
    match a with
    | ⟨0, _⟩ => show win0_0.index t (0 : Fin 2) * 2000 + 1 * p.val = t.val * 2000 + p.val; rw [e00]; omega
    | ⟨1, _⟩ => show win0_0.index t (1 : Fin 2) * 512 + 1 * k.val = k.val; rw [e01]; omega
  · show V c main_v0 (((cfg0.win 1).blk t).view.emb (ix2 (0 : Fin 1) k)) = _
    refine congrArg _ ?_
    funext a; apply Fin.ext
    match a with
    | ⟨0, _⟩ => show win0_1.index t (0 : Fin 2) * 1 + 1 * 0 = 0; rw [e10]
    | ⟨1, _⟩ => show win0_1.index t (1 : Fin 2) * 512 + 1 * k.val = k.val; rw [e11]; omega
  · show V c main_v1 (((cfg0.win 2).blk t).view.emb (ix2 (0 : Fin 1) k)) = _
    refine congrArg _ ?_
    funext a; apply Fin.ext
    match a with
    | ⟨0, _⟩ => show win0_2.index t (0 : Fin 2) * 1 + 1 * 0 = 0; rw [e20]
    | ⟨1, _⟩ => show win0_2.index t (1 : Fin 2) * 512 + 1 * k.val = k.val; rw [e21]; omega

/-- An index of the output array is in point `t`'s block iff each coordinate is in the block's range on its axis. -/
theorem mem_block (t : Fin cfg0.N) (i : S10000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v2).slice (win0_3.rect t)).set ↔ _
  rw [View.set_slice_whole, Rect.mem_set_unit]
  exact Iff.rfl

/-- The five blocks of 2000 rows tile the 10000 rows: row `r` is in the block of point `r / 2000`. -/
theorem cover (i : S10000x512.Idx) :
    ∃ t : Fin cfg0.N, (cfg0.win 3).flush t = true ∧ i ∈ ((cfg0.win 3).blk t).view.set := by
  have hi0 : (i 0).val < 10000 := (i 0).isLt
  have hi1 : (i 1).val < 512 := (i 1).isLt
  have hq : (i 0).val / 2000 < 5 := by omega
  refine ⟨⟨(i 0).val / 2000, hq⟩, Gen.flush0_3 _, ?_⟩
  rw [mem_block]
  obtain ⟨-, -, -, -, -, -, e30, e31⟩ := index_facts ⟨(i 0).val / 2000, hq⟩
  intro a
  match a with
  | ⟨0, _⟩ =>
    show win0_3.index ⟨(i 0).val / 2000, hq⟩ (0 : Fin 2) * 2000 ≤ (i 0).val ∧ (i 0).val < win0_3.index ⟨(i 0).val / 2000, hq⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, hq⟩ (1 : Fin 2) * 512 ≤ (i 1).val ∧ (i 1).val < win0_3.index ⟨(i 0).val / 2000, hq⟩ (1 : Fin 2) * 512 + 512
    rw [e31]
    omega

/-- The output array after the region is the normalised input array. -/
theorem final0 (c : Dev nD) :
    (Gen.dat0 (F := Ideal) V c).arrAt 3 cfg0.N = Cert.Sage.lnArr (V c main_arg0) (V c main_v0) (V c main_v1) :=
  (Gen.dat0 (F := Ideal) V c).arrAt_eq_of_cover 3 (Cert.Sage.lnArr (V c main_arg0) (V c main_v0) (V c main_v1))
    (fun t _ => flushed_eq V c t) cover

end Cert.KernelIdeal.LnValue

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.TransformBody.lean ====
/-
  One entry of the block the transform body stores, on the extended reals.

  The stored block is  max (A + B + bias, 0) + raw,  where A is the matrix product of the neighbour sums, each row
  scaled by its reciprocal count, with the first weight matrix, and B is the matrix product of the normalised raw
  features with the second weight matrix.  Read at row p and column j:
    A_pj = sum_k (S_pk * inv_p) * wl_kj,      B_pj = sum_k LN(raw)_pk * wr_kj,
  the bias row contributes its entry j to every row, and the reciprocal-count column contributes its entry p to every
  column.  Both products accumulate into a zero array, so each is the plain sum over the contracted coordinate.
-/
import proofs.«174351_j56375740727935_2_alg».proof.Proof.Gen.KernelIdeal.Skeleton
import proofs.«174351_j56375740727935_2_alg».proof.Proof.Spec
import proofs.«174351_j56375740727935_2_alg».proof.Proof.LnBody
import proofs.«174351_j56375740727935_2_alg».proof.Proof.LibSoftplus
import proofs.«174351_j56375740727935_2_alg».proof.Proof.LibColumnLayout
import Idealize.ShloMosaic.Lib.ValueLayout
import Idealize.ShloMosaic.Lib.Pipeline.Value

noncomputable section

open scoped BigOperators
open Idealize.ShloMosaic Idealize.ShloMosaic.TcCoe Idealize.ShloMosaic.ValueIdx Idealize.SL.Sem
open Cert.KernelIdeal Cert.KernelIdeal.Gen

namespace Cert.KernelIdeal.TransformValue

/-- The neighbour-sum product at (p, j): the sum over k of (S_pk * inv_p) * wl_kj.  The left operand is the
    neighbour-sum block times the reciprocal-count column spread along the rows' 512 columns, so its entry (p, k)
    depends on the neighbour sums only through S_pk and on the counts only through entry p. -/
theorem pay3_apply (v27 : Vec Ideal S2000x512 .f32) (v29 : Vec Ideal S2000x1 .f32) (v33 : Vec Ideal S512x512 .f32)
    (p : Fin 2000) (j : Fin 512) :
    Gen.k1_pay3 (F := Ideal) v27 v29 v33 (ix2 p j)
      = ∑ k : Fin 512, (v27 (ix2 p k) * v29 (ix2 p 0)) * v33 (ix2 k j) := by
  unfold Gen.k1_pay3
  refine (Cert.Lib.Softplus.matmul0_plain_apply dot_S2000x512_S512x512_S2000x512_1_0_0_1_n_n rfl (some .fp32) _ _ p j).trans ?_
  refine Finset.sum_congr rfl fun k _ => ?_
  rw [mulf_apply, shapeCast_self, shapeCast_self, shapeCast_self, PhysLoss.broadcastTo_a1_ab_apply]

/-- The normalised-feature product at (p, j): the sum over k of LN(raw)_pk * wr_kj, where LN(raw)_pk is entry k of
    the normalisation of row p of the raw block with the scale and shift entries k. -/
theorem matmul_ln_apply (v0 : Vec Ideal S2000x512 .f32) (v19 v23 : Vec Ideal S1x512 .f32) (v36 : Vec Ideal S512x512 .f32)
    (p : Fin 2000) (j : Fin 512) :
    matmul dot_S2000x512_S512x512_S2000x512_1_0_0_1_n_n (some .fp32) (Gen.k1_pay2 (F := Ideal) v0 v19 v23)
        (Gen.k1_pay4 (F := Ideal) v36) (constant (F := Ideal) S2000x512 .f32 0x00000000#32) (ix2 p j)
      = ∑ k : Fin 512, Cert.Sage.lnAt (fun k' => v0 (ix2 p k')) (v19 (ix2 0 k)) (v23 (ix2 0 k)) k * v36 (ix2 k j) := by
  refine (Cert.Lib.Softplus.matmul0_plain_apply dot_S2000x512_S512x512_S2000x512_1_0_0_1_n_n rfl (some .fp32) _ _ p j).trans ?_
  refine Finset.sum_congr rfl fun k _ => ?_
  rw [Cert.KernelIdeal.LnValue.pay_ln']
  unfold Gen.k1_pay4
  rw [shapeCast_self]

/-- The stored block at (p, j): the maximum with zero of the two products' sum plus the bias entry j, plus the raw
    entry (p, j).  The additions, the maximum and the zero splat are read entry by entry; the bias row is spread along
    the 2000 rows, so only its entry j enters. -/
theorem pay_out (v0 : Vec Ideal S2000x512 .f32) (v19 v23 : Vec Ideal S1x512 .f32) (v27 : Vec Ideal S2000x512 .f32)
    (v29 : Vec Ideal S2000x1 .f32) (v33 v36 : Vec Ideal S512x512 .f32) (v40 : Vec Ideal S1x512 .f32) (p : Fin 2000) (j : Fin 512) :
    Gen.k1_pay1 (F := Ideal) v0 (Gen.k1_pay2 v0 v19 v23) (Gen.k1_pay3 v27 v29 v33) (Gen.k1_pay4 v36) (constant S2000x512 .f32 0x00000000#32) v40 (ix2 p j)
      = Cert.Sage.outAt (fun k => v27 (ix2 p k)) (fun k => Cert.Sage.lnAt (fun k' => v0 (ix2 p k')) (v19 (ix2 0 k)) (v23 (ix2 0 k)) k)
          (v29 (ix2 p 0)) (fun k => v33 (ix2 k j)) (fun k => v36 (ix2 k j)) (v40 (ix2 0 j)) (v0 (ix2 p j)) := by
  unfold Gen.k1_pay1 Cert.Sage.outAt
  show max ((Gen.k1_pay3 (F := Ideal) v27 v29 v33 (ix2 p j)
        + matmul dot_S2000x512_S512x512_S2000x512_1_0_0_1_n_n (some .fp32) (Gen.k1_pay2 (F := Ideal) v0 v19 v23)
            (Gen.k1_pay4 (F := Ideal) v36) (constant (F := Ideal) S2000x512 .f32 0x00000000#32) (ix2 p j))
        + broadcastTo S2000x512 (shapeCast S1x512 v40 shapeCasts_S1x512_S1x512) broadcasts_S1x512_S2000x512 (ix2 p j))
      (Ideal.ofBits .f32 0x00000000#32) + v0 (ix2 p j) = _
  rw [pay3_apply, matmul_ln_apply, broadcastTo_1b_ab_apply, shapeCast_self]

end Cert.KernelIdeal.TransformValue

end
-- ==== Proof.TransformRegion.lean ====
/-
  What the transform region leaves in its output array, whole.

  The region runs over five grid points.  At point t the three row-blocked inputs (neighbour sums, reciprocal
  counts, raw features) and the output all sit at block (t, 0): rows t*2000 .. t*2000+1999, every column (the
  reciprocal counts have one column).  The scale row, the shift row, the bias row and the two weight matrices sit
  at block (0, 0) at every point and are the whole arrays.  An entry's array coordinate is always block index
  times block extent plus the coordinate inside the block.  So entry (p, j) of what point t stores is the layer's
  output at (t*2000 + p, j), and since row r lies in the block of point r / 2000 the five blocks fill the array.
-/
import proofs.«174351_j56375740727935_2_alg».proof.Proof.Gen.KernelIdeal.Frame
import proofs.«174351_j56375740727935_2_alg».proof.Proof.Spec
import proofs.«174351_j56375740727935_2_alg».proof.Proof.TransformBody
import Idealize.ShloMosaic.Lib.Pipeline.Value

noncomputable section

open scoped BigOperators
open Idealize.ShloMosaic Idealize.ShloMosaic.TcCoe Idealize.ShloMosaic.ValueIdx Idealize.SL.Sem
open Cert.KernelIdeal Cert.KernelIdeal.Gen

namespace Cert.KernelIdeal.TransformValue

/-- The offsets of a whole-buffer access are all zero. -/
theorem zero_offsets : (![0, 0] : Fin 2 → Nat) = fun _ => 0 := funext fun a => by fin_cases a <;> rfl

/-- The block indices over the five grid points: the three row-blocked inputs and the output sit at block (t, 0);
    the five resident inputs sit at block (0, 0). -/
theorem index_facts : ∀ t : Fin cfg1.N,
      win1_8.index t (0 : Fin 2) = t.val ∧ win1_8.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ t.val < 5 :=
  (by decide +kernel : ∀ t : Fin grid1.N, _)

/-- The array row that row p of grid point t's block is. -/
def rowOf (t : Fin cfg1.N) (p : Fin 2000) : Fin 10000 :=
  ⟨t.val * 2000 + p.val, by have h := (index_facts t).2.2.2.2.2.2.2.2.2.2.2.2.2.2.2.2.2.2; have := p.isLt; omega⟩

variable (V : (c : Dev nD) → (b : Ref sig .tc) → Buf (Elt Ideal) ((c : Thread nD τ).loc b)) (c : Dev nD)

/-- Row p of the neighbour-sum block at point t is row t*2000+p of the neighbour-sum array. -/
theorem blk_sum (t : Fin cfg1.N) (p : Fin 2000) (k : Fin 512) :
    Gen.iblk1 V c 0 t (ix2 p k) = V c main_v16 (ix2 (rowOf t p) k) := by
  have f := index_facts t
  show V c main_v16 (((cfg1.win 0).blk t).view.emb (ix2 p k)) = V c main_v16 (ix2 (rowOf t p) k)
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 512 + 1 * k.val = k.val; omega

/-- Row p of the reciprocal-count block at point t is row t*2000+p of the reciprocal-count column. -/
theorem blk_inv (t : Fin cfg1.N) (p : Fin 2000) :
    Gen.iblk1 V c 1 t (ix2 p (0 : Fin 1)) = V c main_v25 (ix2 (rowOf t p) (0 : Fin 1)) := by
  have f := index_facts t
  show V c main_v25 (((cfg1.win 1).blk t).view.emb (ix2 p (0 : Fin 1))) = V c main_v25 (ix2 (rowOf t p) (0 : Fin 1))
  refine congrArg _ (funext fun a => Fin.ext ?_)
  match a with
  | ⟨0, _⟩ => show win1_1.index t (0 : Fin 2) * 2000 + 1 * p.val = t.val * 2000 + p.val; omega
  | ⟨1, _⟩ => show win1_1.index t (1 : Fin 2) * 1 + 1 * 0 = 0; omega

/-- Row p of the raw-feature block at point t is row t*2000+p of the raw-feature array. -/
theorem blk_raw (t : Fin cfg1.N) (p : Fin 2000) (k : Fin 512) :
    Gen.iblk1 V c 2 t (ix2 p k) = V c main_arg0 (ix2 (rowOf t p) k) := by
  have f := index_facts t
  show V c main_arg0 (((cfg1.win 2).blk t).view.emb (ix2 p k)) = V c main_arg0 (ix2 (rowOf t p) k)
  refine congrArg _ (funext fun a => Fin.ext ?_)
  match a with
  | ⟨0, _⟩ => show win1_2.index t (0 : Fin 2) * 2000 + 1 * p.val = t.val * 2000 + p.val; omega
  | ⟨1, _⟩ => show win1_2.index t (1 : Fin 2) * 512 + 1 * k.val = k.val; omega

/-- The scale row's block is the whole scale row at every point. -/
theorem blk_gamma (t : Fin cfg1.N) (k : Fin 512) :
    Gen.iblk1 V c 3 t (ix2 (0 : Fin 1) k) = V c main_v28 (ix2 (0 : Fin 1) k) := by
  have f := index_facts t
  show V c main_v28 (((cfg1.win 3).blk t).view.emb (ix2 (0 : Fin 1) k)) = V c main_v28 (ix2 (0 : Fin 1) k)
  refine congrArg _ (funext fun a => Fin.ext ?_)
  match a with
  | ⟨0, _⟩ => show win1_3.index t (0 : Fin 2) * 1 + 1 * 0 = 0; omega
  | ⟨1, _⟩ => show win1_3.index t (1 : Fin 2) * 512 + 1 * k.val = k.val; omega

/-- The shift row's block is the whole shift row at every point. -/
theorem blk_beta (t : Fin cfg1.N) (k : Fin 512) :
    Gen.iblk1 V c 4 t (ix2 (0 : Fin 1) k) = V c main_v29 (ix2 (0 : Fin 1) k) := by
  have f := index_facts t
  show V c main_v29 (((cfg1.win 4).blk t).view.emb (ix2 (0 : Fin 1) k)) = V c main_v29 (ix2 (0 : Fin 1) k)
  refine congrArg _ (funext fun a => Fin.ext ?_)
  match a with
  | ⟨0, _⟩ => show win1_4.index t (0 : Fin 2) * 1 + 1 * 0 = 0; omega
  | ⟨1, _⟩ => show win1_4.index t (1 : Fin 2) * 512 + 1 * k.val = k.val; omega

/-- The first weight matrix's block is the whole matrix at every point. -/
theorem blk_wl (t : Fin cfg1.N) (k j : Fin 512) :
    Gen.iblk1 V c 5 t (ix2 k j) = V c main_v26 (ix2 k j) := by
  have f := index_facts t
  show V c main_v26 (((cfg1.win 5).blk t).view.emb (ix2 k j)) = V c main_v26 (ix2 k j)
  refine congrArg _ (funext fun a => Fin.ext ?_)
  match a with
  | ⟨0, _⟩ => show win1_5.index t (0 : Fin 2) * 512 + 1 * k.val = k.val; omega
  | ⟨1, _⟩ => show win1_5.index t (1 : Fin 2) * 512 + 1 * j.val = j.val; omega

/-- The bias row's block is the whole bias row at every point. -/
theorem blk_bl (t : Fin cfg1.N) (k : Fin 512) :
    Gen.iblk1 V c 6 t (ix2 (0 : Fin 1) k) = V c main_v30 (ix2 (0 : Fin 1) k) := by
  have f := index_facts t
  show V c main_v30 (((cfg1.win 6).blk t).view.emb (ix2 (0 : Fin 1) k)) = V c main_v30 (ix2 (0 : Fin 1) k)
  refine congrArg _ (funext fun a => Fin.ext ?_)
  match a with
  | ⟨0, _⟩ => show win1_6.index t (0 : Fin 2) * 1 + 1 * 0 = 0; omega
  | ⟨1, _⟩ => show win1_6.index t (1 : Fin 2) * 512 + 1 * k.val = k.val; omega

/-- The second weight matrix's block is the whole matrix at every point. -/
theorem blk_wr (t : Fin cfg1.N) (k j : Fin 512) :
    Gen.iblk1 V c 7 t (ix2 k j) = V c main_v27 (ix2 k j) := by
  have f := index_facts t
  show V c main_v27 (((cfg1.win 7).blk t).view.emb (ix2 k j)) = V c main_v27 (ix2 k j)
  refine congrArg _ (funext fun a => Fin.ext ?_)
  match a with
  | ⟨0, _⟩ => show win1_7.index t (0 : Fin 2) * 512 + 1 * k.val = k.val; omega
  | ⟨1, _⟩ => show win1_7.index t (1 : Fin 2) * 512 + 1 * j.val = j.val; omega

/-- Entry (p, j) of the output block at point t sits at (t*2000+p, j) of the output array. -/
theorem out_emb (t : Fin cfg1.N) (p : Fin 2000) (j : Fin 512) :
    ((cfg1.win 8).blk t).view.emb (ix2 p j) = ix2 (rowOf t p) j := by
  have f := index_facts t
  refine funext fun a => Fin.ext ?_
  match a with
  | ⟨0, _⟩ => show win1_8.index t (0 : Fin 2) * 2000 + 1 * p.val = t.val * 2000 + p.val; omega
  | ⟨1, _⟩ => show win1_8.index t (1 : Fin 2) * 512 + 1 * j.val = j.val; omega

/-- What the body stores at an entry of point t's block is the layer's output at the array entry the block entry is. -/
theorem out_block_entry (t : Fin cfg1.N) (y : S2000x512.Idx) :
    Gen.k1_pay1 (F := Ideal) (Gen.iblk1 V c 2 t) (Gen.k1_pay2 (Gen.iblk1 V c 2 t) (Gen.iblk1 V c 3 t) (Gen.iblk1 V c 4 t))
        (Gen.k1_pay3 (Gen.iblk1 V c 0 t) (Gen.iblk1 V c 1 t) (Gen.iblk1 V c 5 t)) (Gen.k1_pay4 (Gen.iblk1 V c 7 t))
        (constant S2000x512 .f32 0x00000000#32) (Gen.iblk1 V c 6 t) y
      = (Cert.Sage.outArr (V c main_v16) (V c main_v25) (V c main_arg0) (V c main_v28) (V c main_v29) (V c main_v26) (V c main_v30) (V c main_v27)) (((cfg1.win 8).blk t).view.emb y) := by
  obtain ⟨p, j, rfl⟩ : ∃ (p : Fin 2000) (j : Fin 512), y = ix2 p j := ⟨y 0, y 1, eq_ix2 y⟩
  refine (pay_out _ _ _ _ _ _ _ _ p j).trans ?_
  rw [out_emb, Cert.Sage.outArr_ix2]
  unfold Cert.Sage.outEntry Cert.Sage.lnEntry
  simp only [blk_sum, blk_inv, blk_raw, blk_gamma, blk_beta, blk_wl, blk_bl, blk_wr]

/-- What grid point t writes back is its block of the layer's output array. -/
theorem flushed_eq (t : Fin cfg1.N) :
    (Gen.dat1 (F := Ideal) V c).flushed 8 t
      = ((cfg1.win 8).blk t).view.read (Elt Ideal) (Cert.Sage.outArr (V c main_v16) (V c main_v25) (V c main_arg0) (V c main_v28) (V c main_v29) (V c main_v26) (V c main_v30) (V c main_v27)) := by
  show (cfg1.win 8).cut (grid1.coords t) ((Gen.dat1 V c).after 8 t) = _
  rw [Gen.after1_8]
  unfold Gen.out1_8
  rw [View.canon_unit_zero zero_offsets]
  simp only [View.ld_unit_zero (S := S2000x512) zero_offsets, View.ld_unit_zero (S := S2000x1) zero_offsets,
    View.ld_unit_zero (S := S1x512) zero_offsets, View.ld_unit_zero (S := S512x512) zero_offsets]
  funext y
  exact out_block_entry V c t y

/-- An index of the output array is in point t's block iff each coordinate is in the block's range on its axis. -/
theorem mem_blk (t : Fin cfg1.N) (i : S10000x512.Idx) :
    i ∈ ((cfg1.win 8).blk t).view.set ↔ ∀ a : Fin 2, win1_8.index t a * S2000x512.size a ≤ (i a).val ∧ (i a).val < win1_8.index t a * S2000x512.size a + S2000x512.size a := by
  show i ∈ ((View.whole main_v31).slice (win1_8.rect t)).set ↔ _
  rw [View.set_slice_whole, Rect.mem_set_unit]
  exact Iff.rfl

/-- Every entry of the output array is in some point's block: row r is in the block of point r / 2000. -/
theorem cover (i : S10000x512.Idx) :
    ∃ t : Fin cfg1.N, (cfg1.win 8).flush t = true ∧ i ∈ ((cfg1.win 8).blk t).view.set := by
  have h0 : (i 0).val < 10000 := idx2_lt0 i
  have h1 : (i 1).val < 512 := idx2_lt1 i
  have hN : (i 0).val / 2000 < cfg1.N := by show (i 0).val / 2000 < 5; omega
  have f := index_facts ⟨(i 0).val / 2000, hN⟩
  refine ⟨⟨(i 0).val / 2000, hN⟩, Gen.flush1_8 _, ?_⟩
  rw [mem_blk]
  intro a
  match a with
  | ⟨0, _⟩ =>
    show win1_8.index ⟨(i 0).val / 2000, hN⟩ (0 : Fin 2) * 2000 ≤ (i 0).val ∧ (i 0).val < win1_8.index ⟨(i 0).val / 2000, hN⟩ (0 : Fin 2) * 2000 + 2000
    have e : (⟨(i 0).val / 2000, hN⟩ : Fin cfg1.N).val = (i 0).val / 2000 := rfl
    omega
  | ⟨1, _⟩ =>
    show win1_8.index ⟨(i 0).val / 2000, hN⟩ (1 : Fin 2) * 512 ≤ (i 1).val ∧ (i 1).val < win1_8.index ⟨(i 0).val / 2000, hN⟩ (1 : Fin 2) * 512 + 512
    omega

/-- The output array after the region is the layer's output array. -/
theorem final1 :
    (Gen.dat1 (F := Ideal) V c).arrAt 8 cfg1.N = (Cert.Sage.outArr (V c main_v16) (V c main_v25) (V c main_arg0) (V c main_v28) (V c main_v29) (V c main_v26) (V c main_v30) (V c main_v27)) :=
  (Gen.dat1 (F := Ideal) V c).arrAt_eq_of_cover 8 _ (fun t _ => flushed_eq V c t) cover

end Cert.KernelIdeal.TransformValue

end
-- ==== Proof.RefEntry.lean ====
/-
  The reference, read one entry at a time at the extended reals.

  Its normalised array at (r, j) is the row formula of the specification applied to row r of the features: the host's
  two sums over the 512 features start from the zero word, which is the real zero, so they are the bare sums the
  specification has; the keep-dimension broadcasts only repeat a row's mean, variance and reciprocal root along the row.

  Its result at (r, j) is  max( sum_k (S_rk / c_r) * wl_jk  +  bl_j  +  sum_k x_rk * wr_jk , 0 ) + raw_rj  where S is the
  scatter-added neighbour sum of the normalised array x, c the neighbour count raised to at least one, and the two
  matrix products contract the weights' SECOND index (the host transposes them first).  The neighbour sum, the count
  and the normalised array are left as the stages they are; only layout operations and pointwise arithmetic are opened.
-/
import proofs.«174351_j56375740727935_2_alg».proof.Proof.Gen.ReferenceIdeal.Read
import proofs.«174351_j56375740727935_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The reference's normalised array at row `r`, column `j`: the specification's row formula of row `r`, scaled by
    the `j`-th scale entry and shifted by the `j`-th shift entry. -/
theorem ref_ln_entry (x0 : (⟨S10000x512, .f32⟩ : BufTy).Contents (Elt Ideal)) (x2 x3 : (⟨S512, .f32⟩ : BufTy).Contents (Elt Ideal))
    (r : Fin 10000) (j : Fin 512) :
    val_main_v23 (F := Ideal) x0 x2 x3 (ix2 r j)
      = Cert.Sage.lnAt (fun k => x0 (ix2 r k)) (x2 (ix1 j)) (x3 (ix1 j)) j := by
  simp only [val_main_v23_apply, val_main_v20_apply, val_main_v22_apply, val_main_v21_apply, val_main_v19_apply, val_main_v18_apply,
    val_main_v17_apply, val_main_v16_apply, val_main_v15_apply, val_main_v14_apply, val_main_v13_apply, val_main_cst_3_apply,
    val_main_v12_apply, val_main_v11_apply, val_main_v10_apply, val_main_v9_apply, val_main_cst_2_apply, val_main_v8_apply,
    val_main_v7_apply, val_main_cst_1_apply, val_main_v6_apply, val_main_v5_apply, val_main_v4_apply, val_main_v3_apply,
    val_main_v2_apply, val_main_cst_0_apply, val_main_v1_apply, val_main_v0_apply, val_main_cst_apply]
  have e1 : ∀ k : Fin 512, idx_main_v0 (idx_main_v1 (idx_main_v11 (ix2 r j))) k = ix2 r k := fun k =>
    funext fun a => Fin.ext (by match a with | ⟨0, _⟩ => rfl | ⟨1, _⟩ => rfl)
  have e2 : ∀ k : Fin 512, idx_main_v7 (idx_main_v8 (idx_main_v16 (ix2 r j))) k = ix2 r k := fun k =>
    funext fun a => Fin.ext (by match a with | ⟨0, _⟩ => rfl | ⟨1, _⟩ => rfl)
  have e3 : ∀ k k' : Fin 512, idx_main_v0 (idx_main_v1 (idx_main_v4 (ix2 r k))) k' = ix2 r k' := fun k k' =>
    funext fun a => Fin.ext (by match a with | ⟨0, _⟩ => rfl | ⟨1, _⟩ => rfl)
  have e4 : idx_main_v18 (idx_main_v19 (ix2 r j)) = ix1 j :=
    funext fun a => Fin.ext (by match a with | ⟨0, _⟩ => rfl)
  have e5 : idx_main_v21 (idx_main_v22 (ix2 r j)) = ix1 j :=
    funext fun a => Fin.ext (by match a with | ⟨0, _⟩ => rfl)
  simp only [e1, e2, e3, e4, e5, Ideal.addf_def, Ideal.subf_def, Ideal.mulf_def, Ideal.hostDivf_def, Ideal.hostUnary_rsqrt_def,
    Ideal.ofBits_def, Ideal.ofBits_zero_f32, zero_add]
  rfl

/-- The reference's result at node `r`, feature `j`, over its three stages left closed (neighbour sum, count raised
    to one, normalised array). -/
theorem ref_out_entry (x0 : (⟨S10000x512, .f32⟩ : BufTy).Contents (Elt Ideal)) (x1 : (⟨S2x150000, .i32⟩ : BufTy).Contents (Elt Ideal))
    (x2 x3 : (⟨S512, .f32⟩ : BufTy).Contents (Elt Ideal)) (x4 : (⟨S512x512, .f32⟩ : BufTy).Contents (Elt Ideal))
    (x5 : (⟨S512, .f32⟩ : BufTy).Contents (Elt Ideal)) (x6 : (⟨S512x512, .f32⟩ : BufTy).Contents (Elt Ideal))
    (r : Fin 10000) (j : Fin 512) :
    val_main_v56 (F := Ideal) x0 x1 x2 x3 x4 x5 x6 (ix2 r j)
      = max (((∑ k : Fin 512, Ideal.div (val_main_v37 (F := Ideal) x0 x1 x2 x3 (ix2 r k)) (val_main_v43 (F := Ideal) x1 (ix1 r)) * x4 (ix2 j k))
              + x5 (ix1 j)) + ∑ k : Fin 512, val_main_v23 (F := Ideal) x0 x2 x3 (ix2 r k) * x6 (ix2 j k))
          (Ideal.ofBits .f32 0x00000000#32) + x0 (ix2 r j) := by
  simp only [val_main_v56_apply, val_main_v55_apply, val_main_call0_v0_apply, val_main_call0_cst_apply, val_main_v54_apply,
    val_main_v53_apply, val_main_v52_apply, val_main_v51_apply, val_main_v50_apply, val_main_v49_apply, val_main_v48_apply,
    val_main_v47_apply, val_main_v46_apply, val_main_v45_apply, val_main_v44_apply]
  have e1 : ∀ k : Fin 512, lidx_main_v48 (ix2 r j) k = ix2 r k := fun k =>
    funext fun a => Fin.ext (by match a with | ⟨0, _⟩ => rfl | ⟨1, _⟩ => rfl)
  have e2 : ∀ k : Fin 512, idx_main_v44 (idx_main_v45 (ix2 r k)) = ix1 r := fun k =>
    funext fun a => Fin.ext (by match a with | ⟨0, _⟩ => rfl)
  have e3 : ∀ k : Fin 512, idx_main_v47 (ridx_main_v48 (ix2 r j) k) = ix2 j k := fun k =>
    funext fun a => Fin.ext (by match a with | ⟨0, _⟩ => rfl | ⟨1, _⟩ => rfl)
  have e4 : idx_main_v49 (idx_main_v50 (ix2 r j)) = ix1 j :=
    funext fun a => Fin.ext (by match a with | ⟨0, _⟩ => rfl)
  have e5 : ∀ k : Fin 512, lidx_main_v53 (ix2 r j) k = ix2 r k := fun k =>
    funext fun a => Fin.ext (by match a with | ⟨0, _⟩ => rfl | ⟨1, _⟩ => rfl)
  have e6 : ∀ k : Fin 512, idx_main_v52 (ridx_main_v53 (ix2 r j) k) = ix2 j k := fun k =>
    funext fun a => Fin.ext (by match a with | ⟨0, _⟩ => rfl | ⟨1, _⟩ => rfl)
  simp only [e1, e2, e3, e4, e5, e6, Ideal.addf_def, Ideal.maximumf_def, Ideal.hostDivf_def, Ideal.ofBits_def]

end Cert.ReferenceIdeal.RefValue

end
-- ==== Proof.Law.lean ====
/-
  The one algebraic law that joins the kernel's arrangement of an output entry to the reference's.

  The kernel multiplies a neighbour sum by the reciprocal 1 / c of the count; the reference divides the sum by c.  On the
  extended reals the quotient x / c is x * c⁻¹ whenever c is not zero (the quotient by zero is defined apart), and the
  count used is max(c0, 1), at least one, hence not zero: so x * (1 / c) = x * (1 * c⁻¹) = x / c for every extended real
  x, infinite ones included.  Nothing needs the inputs finite.  The kernel adds the bias after both matrix products and
  the reference between them; addition on the extended reals is commutative and associative, so the two sums agree.
-/
import proofs.«174351_j56375740727935_2_alg».proof.Proof.Spec

noncomputable section

open scoped BigOperators

namespace Cert.Sage

open Idealize.ShloMosaic

/-- The word 1.0 is the real one. -/
theorem ofBits_one_f32 : Ideal.ofBits .f32 0x3F800000#32 = 1 := by
  simp [Ideal.ofBits, Ideal.ieee]
  rw [← EReal.coe_mul]
  norm_num

/-- Dividing by a quantity that is at least one is multiplying by its reciprocal. -/
theorem div_eq_mul_recip (s c : EReal) (hc : 1 ≤ c) : Ideal.div s c = s * Ideal.div 1 c := by
  have h0 : c ≠ 0 := ne_of_gt (lt_of_lt_of_le zero_lt_one hc)
  unfold Ideal.div
  rw [if_neg h0, if_neg h0, one_mul]

/-- An output entry computed with the reciprocal of the count raised to one, bias last, is the entry computed with
    the quotient by that count, bias between the two products. -/
theorem outAt_recip (s x : Fin 512 → EReal) (c0 : EReal) (wl wr : Fin 512 → EReal) (bl raw : EReal) :
    outAt s x (Ideal.div (Ideal.ofBits .f32 0x3F800000#32) (max c0 (Ideal.ofBits .f32 0x3F800000#32))) wl wr bl raw
      = max (((∑ k, Ideal.div (s k) (max c0 (Ideal.ofBits .f32 0x3F800000#32)) * wl k) + bl) + ∑ k, x k * wr k)
          (Ideal.ofBits .f32 0x00000000#32) + raw := by
  rw [ofBits_one_f32]
  have hc : (1 : EReal) ≤ max c0 1 := le_max_right _ _
  unfold outAt
  rw [add_right_comm]
  refine congrArg (fun t => max ((t + bl) + ∑ k, x k * wr k) (Ideal.ofBits .f32 0x00000000#32) + raw) ?_
  refine Finset.sum_congr rfl fun k _ => ?_
  rw [div_eq_mul_recip (s k) _ hc]

end Cert.Sage

end
-- ==== Proof.Bridge.lean ====
/-
  The kernel's result array is the reference's result, as one function of the arguments.

  The transform region leaves, at (r, j), the specification's output entry of the arrays it was entered with.  Those are:
  the neighbour sums of the normalisation region's output array — which is the specification's normalised array of the
  features with scale and shift re-laid as rows, and that is also what the reference's normalised array is, entry by
  entry, so the two neighbour sums are the same stage applied to equal arrays —; the column of 1 / max(count, 1); the
  features; scale, shift and bias as rows; and the two transposed weight matrices, whose entry (k, j) is the weight's
  entry (j, k).  The reference's result at (r, j) divides the neighbour sum by max(count, 1) and adds the bias between
  the two products.  The law of reciprocals (a quotient by a count that is at least one is the product with its
  reciprocal) and the commutativity of addition on the extended reals make the two entries equal.
-/
import proofs.«174351_j56375740727935_2_alg».proof.Proof.HostStretch
import proofs.«174351_j56375740727935_2_alg».proof.Proof.LnRegion
import proofs.«174351_j56375740727935_2_alg».proof.Proof.TransformRegion
import proofs.«174351_j56375740727935_2_alg».proof.Proof.RefEntry
import proofs.«174351_j56375740727935_2_alg».proof.Proof.Law
import proofs.«174351_j56375740727935_2_alg».proof.Proof.LibColumnLayout
import Idealize.ShloMosaic.Lib.ValueLayout

set_option maxRecDepth 16384

noncomputable section
open scoped BigOperators

namespace Cert.KernelIdeal.Bridge

open Cert.KernelIdeal Cert.KernelIdeal.Gen Cert.KernelIdeal.HostValue
open Idealize.ShloMosaic Idealize.ShloMosaic.TcCoe Idealize.ShloMosaic.ValueIdx Idealize.SL.Sem
open Cert.Sage

/-- The reference's normalised array is the specification's, with the scale and the shift re-laid as rows. -/
theorem ref_ln_array (x0 : Arr 10000 512) (x2 x3 : (⟨1, ![512]⟩ : Shape).Idx → EReal)
    (h : (⟨1, ![512]⟩ : Shape).ShapeCasts ⟨2, ![1, 512]⟩) :
    Cert.ReferenceIdeal.Read.val_main_v23 (F := Ideal) x0 x2 x3
      = lnArr x0 (shapeCast ⟨2, ![1, 512]⟩ x2 h) (shapeCast ⟨2, ![1, 512]⟩ x3 h) := by
  funext i
  obtain ⟨r, j, rfl⟩ : ∃ (r : Fin 10000) (j : Fin 512), i = ix2 r j := ⟨i 0, i 1, eq_ix2 i⟩
  rw [Cert.ReferenceIdeal.RefValue.ref_ln_entry, lnArr_ix2]
  unfold lnEntry
  rw [shapeCast_a_1a_apply, shapeCast_a_1a_apply]

/-- The host's quotient of two arrays, read at an index. -/
theorem hostDivf_apply {s : Shape} (a b : FVec Ideal s .f32) (i : s.Idx) :
    Host.divf (F := Ideal) a b i = Ideal.div (a i) (b i) := rfl

variable (m : (ℓ : Loc nD τ sig) → Buf (Elt Ideal) ℓ) (ρ : Dev nD → PrngReg)

/-- What the transform region's write-backs leave in the result array is the reference's result stage of the
    argument arrays. -/
theorem kernel_value (c : Dev nD) :
    (dat1 (V3 m ρ) c).arrAt 8 cfg1.N
      = Cert.ReferenceIdeal.Read.val_main_v56 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [Cert.KernelIdeal.TransformValue.final1 (V3 m ρ) c, V3_v16, V3_v25, V3_arg0, V3_v28, V3_v29, V3_v26, V3_v30, V3_v27, W2_v2, Cert.KernelIdeal.LnValue.final0 (V1 m ρ) c, V1_arg0, V1_v0, V1_v1]
  funext i
  obtain ⟨r, j, rfl⟩ : ∃ (r : Fin 10000) (j : Fin 512), i = ix2 r j := ⟨i 0, i 1, eq_ix2 i⟩
  rw [outArr_ix2, Cert.ReferenceIdeal.RefValue.ref_out_entry, ref_summed, ref_ln_array _ _ _ Facts₀.shapeCasts_S512_S1x512]
  unfold outEntry
  have hinv : (shapeCast S10000x1
        (Host.divf (F := Ideal) (φ := .f32) (s := S10000) (Cert.ReferenceIdeal.Read.val_main_v42 (F := Ideal))
          (Cert.ReferenceIdeal.Read.val_main_v43 (F := Ideal) (m ((c : Thread nD τ).loc main_arg1))))
        Facts₀.shapeCasts_S10000_S10000x1 : FVec Ideal S10000x1 .f32) (ix2 r 0)
      = Ideal.div (Ideal.ofBits .f32 0x3F800000#32)
          (max (Cert.ReferenceIdeal.Read.val_main_v41 (F := Ideal) (m ((c : Thread nD τ).loc main_arg1)) (ix1 r)) (Ideal.ofBits .f32 0x3F800000#32)) := by
    rw [PhysLoss.shapeCast_a_a1_apply, hostDivf_apply, Cert.ReferenceIdeal.Read.val_main_v43_apply,
      Cert.ReferenceIdeal.Read.val_main_v42_apply, Cert.ReferenceIdeal.Read.val_main_cst_8_apply]
    rfl
  have h43 : Cert.ReferenceIdeal.Read.val_main_v43 (F := Ideal) (m ((c : Thread nD τ).loc main_arg1)) (ix1 r)
      = max (Cert.ReferenceIdeal.Read.val_main_v41 (F := Ideal) (m ((c : Thread nD τ).loc main_arg1)) (ix1 r)) (Ideal.ofBits .f32 0x3F800000#32) := by
    rw [Cert.ReferenceIdeal.Read.val_main_v43_apply, Cert.ReferenceIdeal.Read.val_main_v42_apply, Cert.ReferenceIdeal.Read.val_main_cst_8_apply]
    rfl
  have h47 : ∀ k : Fin 512, Cert.ReferenceIdeal.Read.val_main_v47 (F := Ideal) (m ((c : Thread nD τ).loc main_arg4)) (ix2 k j)
      = m ((c : Thread nD τ).loc main_arg4) (ix2 j k) := fun k => by
    rw [Cert.ReferenceIdeal.Read.val_main_v47_apply]
    exact congrArg _ (funext fun a => Fin.ext (by match a with | ⟨0, _⟩ => rfl | ⟨1, _⟩ => rfl))
  have h52 : ∀ k : Fin 512, Cert.ReferenceIdeal.Read.val_main_v52 (F := Ideal) (m ((c : Thread nD τ).loc main_arg6)) (ix2 k j)
      = m ((c : Thread nD τ).loc main_arg6) (ix2 j k) := fun k => by
    rw [Cert.ReferenceIdeal.Read.val_main_v52_apply]
    exact congrArg _ (funext fun a => Fin.ext (by match a with | ⟨0, _⟩ => rfl | ⟨1, _⟩ => rfl))
  rw [hinv, h43, shapeCast_a_1a_apply]
  simp only [h47, h52, lnArr_ix2]
  exact outAt_recip _ _ _ _ _ _ _

end Cert.KernelIdeal.Bridge
end
-- ==== Proof.lean ====
/-
  The certificate of a graph layer: LayerNorm of the node features, mean aggregation of the normalised neighbours along
  an edge list, two dense maps, bias, ReLU, residual.

  The kernel runs the LayerNorm in one pipelined region (five blocks of 2000 nodes), lets the host gather the normalised
  rows at the edges' sources, scatter-add them at the destinations and count the neighbours, and runs a second region
  that recomputes the LayerNorm of its block, multiplies the neighbour sums by 1 / max(count, 1), applies the two
  weight matrices on the matrix unit, adds the bias, clamps at zero and adds the raw features.  The reference does all
  of it on the host, dividing by max(count, 1) and adding the bias between the two products.

  The three frames are the generated frame certificates (the reference's is its run with the result dropped).  The ideal
  pass rewrote nothing, so there is nothing to preserve.  At the extended reals both programs end with the same result
  array: the reference's last stage as a function of the arguments.  For the kernel that is `Bridge.kernel_value` (the
  two regions' arrays as whole-array functions, the host operations between them read in the reference's stages, the
  law of reciprocals); for the reference it is its run.  No step uses the finiteness of the inputs.
-/
import proofs.«174351_j56375740727935_2_alg».proof.Defs
import proofs.«174351_j56375740727935_2_alg».proof.Proof.Gen.Kernel
import proofs.«174351_j56375740727935_2_alg».proof.Proof.Gen.Kernel.Skeleton
import proofs.«174351_j56375740727935_2_alg».proof.Proof.Gen.Kernel.Launch
import proofs.«174351_j56375740727935_2_alg».proof.Proof.Gen.Kernel.Points
import proofs.«174351_j56375740727935_2_alg».proof.Proof.Gen.Kernel.Frame
import proofs.«174351_j56375740727935_2_alg».proof.Proof.Gen.KernelIdeal
import proofs.«174351_j56375740727935_2_alg».proof.Proof.Gen.KernelIdeal.Skeleton
import proofs.«174351_j56375740727935_2_alg».proof.Proof.Gen.KernelIdeal.Launch
import proofs.«174351_j56375740727935_2_alg».proof.Proof.Gen.KernelIdeal.Points
import proofs.«174351_j56375740727935_2_alg».proof.Proof.Gen.KernelIdeal.Frame
import proofs.«174351_j56375740727935_2_alg».proof.Proof.Gen.ReferenceIdeal
import proofs.«174351_j56375740727935_2_alg».proof.Proof.Gen.ReferenceIdeal.Run
import proofs.«174351_j56375740727935_2_alg».proof.Proof.Gen.ReferenceIdeal.Read
import proofs.«174351_j56375740727935_2_alg».proof.Proof.Gen.Pre_finite_inputs
import proofs.«174351_j56375740727935_2_alg».proof.Proof.KernelRun
import proofs.«174351_j56375740727935_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result array at the reference's last stage of the (agreeing) argument arrays. -/
theorem algebraic : Cert.algebraic_KernelIdeal_ReferenceIdeal := by
  intro m ρ m' ρ' _ hagree
  refine ⟨fun c => Cert.ReferenceIdeal.Read.val_main_v56 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Bridge.kernel_value m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v56_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
